-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_c_0 : IVec S_ 32 := constantI S_ 32 0#32
  let main_v4 : IVec S33554432 32 := broadcastInDim S33554432 ![] bcast_S_S33554432 main_c_0
  let main_v5 : IVec S33554432 1 := cmpi .eq main_arg1 main_v4
  let main_c_1 : IVec S_ 32 := constantI S_ 32 1#32
  let main_v6 : IVec S33554432 32 := broadcastInDim S33554432 ![] bcast_S_S33554432 main_c_1
  let main_v7 : IVec S33554432 1 := cmpi .eq main_arg1 main_v6
  let main_v8 : IVec S33554432 1 := ori main_v5 main_v7
  let main_c_2 : IVec S_ 1 := constantI S_ 1 1#1
  let main_v9 : IVec S_ 1 := (fun x v => Host.reduce IntOp.andi x v reducesTo_S33554432_S_d0 h_S_) main_v8 main_c_2
  let main_v10 : IVec S_ 1 := andi main_v3 main_v9
  main_v10
-- ==== Kernel.lean ====
abbrev S33554432 : Shape := ⟨1, ![33554432]⟩
abbrev S2x131072x128 : Shape := ⟨3, ![2, 131072, 128]⟩
abbrev S2x3x128 : Shape := ⟨3, ![2, 3, 128]⟩
abbrev S1x16384x128 : Shape := ⟨3, ![1, 16384, 128]⟩
abbrev S1x3x128 : Shape := ⟨3, ![1, 3, 128]⟩
abbrev S3x128 : Shape := ⟨2, ![3, 128]⟩
abbrev S1x2048x128 : Shape := ⟨3, ![1, 2048, 128]⟩
abbrev S2048x128 : Shape := ⟨2, ![2048, 128]⟩
abbrev S1x128 : Shape := ⟨2, ![1, 128]⟩
abbrev S128 : Shape := ⟨1, ![128]⟩
abbrev S_ : Shape := ⟨0, ![]⟩
abbrev S2x3 : Shape := ⟨2, ![2, 3]⟩
abbrev S3 : Shape := ⟨1, ![3]⟩
abbrev S1 : Shape := ⟨1, ![1]⟩

abbrev nBuf : Space → Nat
  | .hbm => 34
  | .vmem => 7
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S2x131072x128, .f32⟩
  | .hbm, ⟨3, _⟩ => ⟨S2x131072x128, .i32⟩
  | .hbm, ⟨4, _⟩ => ⟨S2x3x128, .f32⟩
  | .hbm, ⟨5, _⟩ => ⟨S_, .f32⟩
  | .hbm, ⟨6, _⟩ => ⟨S2x3, .f32⟩
  | .hbm, ⟨7, _⟩ => ⟨S_, .f32⟩
  | .hbm, ⟨8, _⟩ => ⟨S3, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .i1⟩
  | .hbm, ⟨22, _⟩ => ⟨S_, .i1⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1x16384x128, .f32⟩
  | .local _ .vmem, ⟨1, _⟩ => ⟨S1x16384x128, .f32⟩
  | .local _ .vmem, ⟨2, _⟩ => ⟨S1x16384x128, .i32⟩
  | .local _ .vmem, ⟨3, _⟩ => ⟨S1x16384x128, .i32⟩
  | .local _ .vmem, ⟨4, _⟩ => ⟨S1x3x128, .f32⟩
  | .local _ .vmem, ⟨5, _⟩ => ⟨S1x3x128, .f32⟩
  | .local _ .vmem, ⟨6, _⟩ => ⟨S3x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c2048_i32 : BitVec 32 := 2048#32
  let v7 : BitVec 32 := Scalar.muli arg6 c2048_i32
  v7
def k0_off1 (k0_t1 : Fin k0_t1_loop.trips) : Fin 3 → Nat :=
  let c0 : Index := 0#32
  let c0_i32_1 : BitVec 32 := 0#32
  let c1_i32 : BitVec 32 := 1#32
  let arg6 : BitVec 32 := Scf.iv c0_i32_1 c1_i32 k0_t1
  let c2048_i32 : BitVec 32 := 2048#32
  let v7 : BitVec 32 := Scalar.muli arg6 c2048_i32
  let v8 : BitVec 32 := v7
  let v9 : Index := Scalar.indexCast v8
  let c0_4 : Index := 0#32
  ![0, v9.toNat, 0]
def k0_cond2 (i : grid0.Coords) : BitVec 1 :=
  let arg1 : BitVec 32 := BitVec.ofNat 32 (i 1).val
  let c7_i32 : BitVec 32 := 7#32
  let v4 : BitVec 1 := Scalar.cmpi .eq arg1 c7_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S33554432_S2x131072x128 : S33554432.ShapeCasts S2x131072x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  h_S1x2048x128 : 0 < S1x2048x128.numel
  shapeCasts_S1x2048x128_S2048x128 : S1x2048x128.ShapeCasts S2048x128
  inb_S3x128_S1x128_0_0 : ∀ a, (![0, 0] : Fin 2 → Nat) a + S1x128.size a ≤ S3x128.size a
  h_S1x128 : 0 < S1x128.numel
  reduces_S2048x128_S128 : S2048x128.Reduces [0] S128
  shapeCasts_S128_S1x128 : S128.ShapeCasts S1x128
  shapeCasts_S1x128_S1x128 : S1x128.ShapeCasts S1x128
  inb_S3x128_S1x128_1_0 : ∀ a, (![1, 0] : Fin 2 → Nat) a + S1x128.size a ≤ S3x128.size a
  inb_S3x128_S1x128_2_0 : ∀ a, (![2, 0] : Fin 2 → Nat) a + S1x128.size a ≤ S3x128.size a
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  reducesTo_S2x3x128_S2x3_d2 : S2x3x128.ReducesTo [2] S2x3
  h_S_ : 0 < S_.numel
  reducesTo_S2x3_S3_d0 : S2x3.ReducesTo [0] S3
  slices_S3_S1_0 : S3.Slices ![0] S1
  shapeCasts_S1_S_ : S1.ShapeCasts S_
  slices_S3_S1_1 : S3.Slices ![1] S1
  slices_S3_S1_2 : S3.Slices ![2] S1
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2048x128.size a ≤ S1x16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x128.size a ≤ S2x131072x128.size a
  hwx0_0 : ∀ i : grid0.Coords, EltTy.bits .f32 = 32 ∨ (Rect.block (s := S2x131072x128) S1x16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16384x128.size a ≤ S2x131072x128.size a
  hwx0_1 : ∀ i : grid0.Coords, EltTy.bits .i32 = 32 ∨ (Rect.block (s := S2x131072x128) S1x16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S2x3x128.size a
  hwx0_2 : ∀ i : grid0.Coords, EltTy.bits .f32 = 32 ∨ (Rect.block (s := S2x3x128) S1x3x128.size (cc0_transform_2 i) (hinb0_2 i)).WholeWords (EltTy.packing .f32)

variable [Facts₀]

abbrev win0_0 : Pipeline.Window sig grid0 :=
  Pipeline.Window.ofSpec (Memref.whole main_v0) S1x16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S33554432, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S33554432, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .i1⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_5 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.Spec.lean ====
/-
  The ranking loss as a function of three totals.

  Both programs end with the same chain of scalar operations on three numbers: p, the number of
  positive labels; a, the sum of all scores; s, the sum of the scores at positive labels. With
  n = 2^25 - p the number of negatives, the result is

    c * (p * (a - s) - n * s) / (p * n)   when p > 0 and n > 0,   and 0 otherwise,

  c the binary value of the single-precision word for 0.2. The function is stated once here, over
  the extended reals, with the operations exactly as both programs print them.
-/
import Idealize.ShloMosaic.PureOps
import Idealize.ShloMosaic.PureOps.Ideal
import Idealize.ShloMosaic.Lib.StableHlo

noncomputable section

namespace Cert.Spec

open Idealize.ShloMosaic

/-- The shape of a scalar. -/
abbrev S0 : Shape := ⟨0, ![]⟩

/-- The loss from the positives' count `p`, the sum of all scores `a` and the sum of the positives' scores `s`. -/
def loss (p a s : FVec Ideal S0 .f32) : FVec Ideal S0 .f32 :=
  select (andi (cmpf .ogt p (constant S0 .f32 0x00000000#32))
      (cmpf .ogt (subf (constant S0 .f32 0x4C000000#32) p) (constant S0 .f32 0x00000000#32)))
    (Host.divf (mulf (constant S0 .f32 0x3E4CCCCD#32)
        (subf (mulf p (subf a s)) (mulf (subf (constant S0 .f32 0x4C000000#32) p) s)))
      (select (andi (cmpf .ogt p (constant S0 .f32 0x00000000#32))
          (cmpf .ogt (subf (constant S0 .f32 0x4C000000#32) p) (constant S0 .f32 0x00000000#32)))
        (mulf p (subf (constant S0 .f32 0x4C000000#32) p)) (constant S0 .f32 0x3F800000#32)))
    (constant S0 .f32 0x00000000#32)

/-- The shape of the two argument arrays: 2^25 entries. -/
abbrev SN : Shape := ⟨1, ![33554432]⟩

/-- What an entry with score `y` and label word `w` contributes to the sum of all scores. -/
def termAll (y : EReal) (_w : BitVec 32) : EReal := y
/-- … to the sum of the positives' scores: the score where the label is not zero. -/
def termPos (y : EReal) (w : BitVec 32) : EReal := if w = 0#32 then 0 else y
/-- … to the count of positives: one where the label is not zero. -/
def termCnt (_y : EReal) (w : BitVec 32) : EReal := if w = 0#32 then 0 else 1

/-- A total over all entries, as a scalar. -/
def total (f : EReal → BitVec 32 → EReal) (x0 : FVec Ideal SN .f32) (x1 : IVec SN 32) : FVec Ideal S0 .f32 :=
  fun _ => ∑ j : SN.Idx, f (x0 j) (x1 j)

/-- The result both programs are shown to compute (the reference when every label is 0 or 1). -/
def result (x0 : FVec Ideal SN .f32) (x1 : IVec SN 32) : FVec Ideal S0 .f32 :=
  loss (total termCnt x0 x1) (total termAll x0 x1) (total termPos x0 x1)

end Cert.Spec

end
-- ==== Proof.ChunkSums.lean ====
/-
  One trip of the kernel's inner loop, read at a lane.

  A trip loads a chunk of 2048 rows by 128 lanes of the scores and of the labels, and the three rows of
  the accumulator. It adds to accumulator row 0 the sum of the chunk's scores down its rows; to row 1 the
  same sum restricted to the entries whose label word is not zero; to row 2 the number of such entries.
  Each statement below reads one of the three stored rows at lane `l` as: what the row held, plus a sum
  over the 2048 rows of the chunk of the entry's contribution (`Cert.Spec.termAll`, `termPos`, `termCnt`).
-/
import proofs.«140280_j23819888623694_2_alg».proof.Proof.Gen.KernelIdeal.Skeleton
import proofs.«140280_j23819888623694_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Chunk

open Cert.KernelIdeal Cert.KernelIdeal.Gen Idealize.ShloMosaic Idealize.ShloMosaic.ValueIdx

/-- A selection on the one-bit word "w is not zero" takes its second branch exactly when w is zero. -/
theorem select_ne_zero {α : Type} (w : BitVec 32) (a b : α) :
    Scalar.select (IntOp.cmpi .ne w 0#32) a b = if w = 0#32 then b else a := by
  unfold Scalar.select IntOp.cmpi
  by_cases h : w = 0#32
  · subst h; simp
  · have hb : (w != 0#32) = true := by simpa [bne_iff_ne] using h
    rw [if_neg h]
    dsimp only
    rw [hb]
    exact if_pos rfl

/-- The sum of a [2048, 128] array down its rows, at lane `l`. -/
theorem rowsum_apply (src : FVec Ideal S2048x128 .f32) (l : Fin 128) :
    multiReduction .add [0] S128 src 0x00000000#32 reduces_S2048x128_S128 (.inl rfl) rfl (ix1 l)
      = ∑ r : Fin 2048, src (ix2 r l) := by
  refine (Ideal.multiReduction_add_single src 0x00000000#32 reduces_S2048x128_S128 (.inl rfl) rfl (ix1 l)).trans ?_
  refine Finset.sum_congr rfl fun r _ => congrArg src ?_
  funext a
  apply Fin.ext
  match a with
  | ⟨0, _⟩ => rfl
  | ⟨1, _⟩ => rfl

/-- The chunk of scores with its leading unit axis dropped. -/
theorem pay4_apply (v10 : Vec Ideal S1x2048x128 .f32) (r : Fin 2048) (l : Fin 128) :
    k0_pay4 (F := Ideal) v10 (ix2 r l) = v10 (ix3 (0 : Fin 1) r l) := by
  unfold k0_pay4
  exact shapeCast_1ab_ab_apply v10 _ r l

/-- The mask: the one-bit word "the label is not zero". -/
theorem pay5_apply (v13 : Vec Ideal S1x2048x128 .i32) (r : Fin 2048) (l : Fin 128) :
    k0_pay5 (F := Ideal) v13 (ix2 r l) = IntOp.cmpi .ne (v13 (ix3 (0 : Fin 1) r l)) 0#32 := by
  unfold k0_pay5
  show IntOp.cmpi .ne (shapeCast S2048x128 v13 shapeCasts_S1x2048x128_S2048x128 (ix2 r l)) 0#32 = _
  rw [shapeCast_1ab_ab_apply]

/-- Accumulator row 0 after a trip: what it held plus the chunk's scores summed down the rows. -/
theorem pay6_apply (v10 : Vec Ideal S1x2048x128 .f32) (v22 : Vec Ideal S1x128 .f32) (u : Fin 1) (l : Fin 128) :
    k0_pay6 (F := Ideal) v10 v22 (ix2 u l) = v22 (ix2 u l) + ∑ r : Fin 2048, v10 (ix3 (0 : Fin 1) r l) := by
  unfold k0_pay6
  refine (congrFun (shapeCast_self _ shapeCasts_S1x128_S1x128) (ix2 u l)).trans ?_
  refine congrArg (fun z => v22 (ix2 u l) + z) ?_
  refine (shapeCast_a_1a_apply _ shapeCasts_S128_S1x128 u l).trans ?_
  refine (rowsum_apply _ l).trans ?_
  exact Finset.sum_congr rfl fun r _ => pay4_apply v10 r l

/-- Accumulator row 1 after a trip: what it held plus the sum down the rows of the scores whose label is not zero. -/
theorem pay7_apply (v10 : Vec Ideal S1x2048x128 .f32) (v13 : Vec Ideal S1x2048x128 .i32) (v29 : Vec Ideal S1x128 .f32)
    (u : Fin 1) (l : Fin 128) :
    k0_pay7 (F := Ideal) v10 v13 v29 (ix2 u l)
      = v29 (ix2 u l) + ∑ r : Fin 2048, Cert.Spec.termPos (v10 (ix3 (0 : Fin 1) r l)) (v13 (ix3 (0 : Fin 1) r l)) := by
  unfold k0_pay7
  refine (congrFun (shapeCast_self _ shapeCasts_S1x128_S1x128) (ix2 u l)).trans ?_
  refine congrArg (fun z => v29 (ix2 u l) + z) ?_
  refine (shapeCast_a_1a_apply _ shapeCasts_S128_S1x128 u l).trans ?_
  refine (rowsum_apply _ l).trans ?_
  refine Finset.sum_congr rfl fun r _ => ?_
  show Scalar.select (k0_pay5 (F := Ideal) v13 (ix2 r l)) (k0_pay4 (F := Ideal) v10 (ix2 r l)) (Ideal.ofBits .f32 0x00000000#32) = _
  rw [pay5_apply, pay4_apply, select_ne_zero, Ideal.ofBits_zero_f32]
  rfl

/-- Accumulator row 2 after a trip: what it held plus the number of entries of the chunk's column whose label is not zero. -/
theorem pay8_apply (v13 : Vec Ideal S1x2048x128 .i32) (v36 : Vec Ideal S1x128 .f32) (u : Fin 1) (l : Fin 128) :
    k0_pay2 (F := Ideal) (k0_pay8 (F := Ideal) v13 v36) (ix2 u l)
      = v36 (ix2 u l) + ∑ r : Fin 2048, Cert.Spec.termCnt 0 (v13 (ix3 (0 : Fin 1) r l)) := by
  unfold k0_pay2 k0_pay8
  refine (congrFun (shapeCast_self _ shapeCasts_S1x128_S1x128) (ix2 u l)).trans ?_
  refine congrArg (fun z => v36 (ix2 u l) + z) ?_
  refine (shapeCast_a_1a_apply _ shapeCasts_S128_S1x128 u l).trans ?_
  refine (rowsum_apply _ l).trans ?_
  refine Finset.sum_congr rfl fun r _ => ?_
  show Scalar.select (k0_pay5 (F := Ideal) v13 (ix2 r l)) (Ideal.ofBits .f32 0x3F800000#32) (Ideal.ofBits .f32 0x00000000#32) = _
  rw [pay5_apply, select_ne_zero, Ideal.ofBits_zero_f32, Ideal.ofBits_one_f32]
  rfl

end Cert.KernelIdeal.Chunk

end
-- ==== Proof.TripValue.lean ====
/-
  What one trip of the inner loop, and then all trips so far, leave in the accumulator.

  The accumulator is a [3, 128] buffer. A trip reads the chunk of rows [2048 k, 2048 k + 2048) of the
  point's block of scores and labels and stores each accumulator row back as what the row held plus the
  chunk's column sums of that row's contribution. Read at row `j` and lane `l`, after the trip the
  accumulator holds what it held before plus `chunk x0 x1 k j l`.
-/
import proofs.«140280_j23819888623694_2_alg».proof.Proof.Gen.KernelIdeal.Loops
import proofs.«140280_j23819888623694_2_alg».proof.Proof.ChunkSums

set_option maxRecDepth 16384

noncomputable section

namespace Cert.KernelIdeal.Trip

open Cert.KernelIdeal Cert.KernelIdeal.Gen Cert.KernelIdeal.Chunk
open Idealize.ShloMosaic Idealize.ShloMosaic.ValueIdx Idealize.ShloMosaic.TcCoe Idealize.SL.Sem

/-- What an entry with score `y` and label `w` adds to accumulator row `j`: row 0 sums the scores, row 1 the
    scores of nonzero labels, row 2 counts the nonzero labels. -/
def term (j : Fin 3) : EReal → BitVec 32 → EReal :=
  match j with
  | 0 => Cert.Spec.termAll
  | 1 => Cert.Spec.termPos
  | 2 => Cert.Spec.termCnt

/-- Row `2048 k + r` of a block of 16384 rows, at lane `l` (the row taken modulo 16384, so that the index is
    defined for every natural `k`; for `k < 8` nothing wraps). -/
def rowIdx (k : ℕ) (r : Fin 2048) (l : Fin 128) : S1x16384x128.Idx :=
  ix3 (0 : Fin 1) (⟨(2048 * k + r.val) % 16384, Nat.mod_lt _ (by norm_num)⟩ : Fin 16384) l

/-- The column sum, over the 2048 rows of chunk `k` of a block, of the entries' contributions to row `j`. -/
def chunk (x0 : S1x16384x128.Idx → EReal) (x1 : S1x16384x128.Idx → BitVec 32) (k : ℕ) (j : Fin 3) (l : Fin 128) : EReal :=
  ∑ r : Fin 2048, term j (x0 (rowIdx k r l)) (x1 (rowIdx k r l))

/-- A store of one accumulator row lands on that row: the rectangle of one row at offset (j, 0) sends
    (0, l) to (j, l). -/
theorem row_emb (off : Fin 2 → ℕ) (inb : ∀ a, off a + S1x128.size a ≤ S3x128.size a) (j : Fin 3)
    (h0 : off 0 = j.val) (h1 : off 1 = 0) (u : Fin 1) (l : Fin 128) :
    (Rect.unit (s := S3x128) off S1x128.size inb).idx (ix2 u l) = ix2 j l := by
  funext a
  apply Fin.ext
  match a with
  | ⟨0, _⟩ =>
    show off 0 + 1 * u.val = j.val
    have := u.isLt; omega
  | ⟨1, _⟩ =>
    show off 1 + 1 * l.val = l.val
    omega

/-- The chunk a trip loads: the rectangle of 2048 rows at row offset 2048 k sends (0, r, l) to (0, 2048 k + r, l). -/
theorem chunk_idx (k : Fin k0_t1_loop.trips) (inb : ∀ a, (k0_off1 k) a + S1x2048x128.size a ≤ S1x16384x128.size a)
    (r : Fin 2048) (l : Fin 128) :
    (Rect.unit (s := S1x16384x128) (k0_off1 k) S1x2048x128.size inb).idx (ix3 (0 : Fin 1) r l) = rowIdx k.val r l := by
  have hk : k.val < 8 := Nat.lt_of_lt_of_le k.isLt k0_t1_abs.2.1
  have e := k0_off1_eq k
  funext a
  apply Fin.ext
  match a with
  | ⟨0, _⟩ =>
    show (k0_off1 k) 0 + 1 * 0 = 0
    rw [e]; rfl
  | ⟨1, _⟩ =>
    show (k0_off1 k) 1 + 1 * r.val = (2048 * k.val + r.val) % 16384
    rw [e]
    show 2048 * k.val + 1 * r.val = (2048 * k.val + r.val) % 16384
    have := r.isLt
    rw [Nat.mod_eq_of_lt (by omega)]; omega
  | ⟨2, _⟩ =>
    show (k0_off1 k) 2 + 1 * l.val = l.val
    rw [e]
    show 0 + 1 * l.val = l.val
    omega

/-- Contents `Rf` with `C j l` added at row `j`, lane `l`. -/
def after (Rf : S3x128.Idx → EReal) (C : Fin 3 → Fin 128 → EReal) (y : S3x128.Idx) : EReal :=
  Rf y + C ⟨(y 0).val, (y 0).isLt⟩ ⟨(y 1).val, (y 1).isLt⟩

theorem after_ix2 (Rf : S3x128.Idx → EReal) (C : Fin 3 → Fin 128 → EReal) (j : Fin 3) (l : Fin 128) :
    after Rf C (ix2 j l) = Rf (ix2 j l) + C j l := rfl

/-- A stored row whose payload at lane `l` is `Rf (jj, l) + C jj l` agrees with `after Rf C` on its rectangle. -/
theorem piece_agrees (Rf : S3x128.Idx → EReal) (C : Fin 3 → Fin 128 → EReal) (off : Fin 2 → ℕ)
    (inb : ∀ a, off a + S1x128.size a ≤ S3x128.size a) (jj : Fin 3) (h0 : off 0 = jj.val) (h1 : off 1 = 0)
    (w : S1x128.Idx → EReal) (hw : ∀ (u : Fin 1) (l : Fin 128), w (ix2 u l) = Rf (ix2 jj l) + C jj l)
    (x : (Rect.unit (s := S3x128) off S1x128.size inb).shape.Idx) :
    w x = after Rf C ((Rect.unit (s := S3x128) off S1x128.size inb).emb x) := by
  obtain ⟨u, l, rfl⟩ : ∃ (u : Fin 1) (l : Fin 128), x = ix2 u l := ⟨x 0, x 1, eq_ix2 x⟩
  show w (ix2 u l) = after Rf C ((Rect.unit (s := S3x128) off S1x128.size inb).idx (ix2 u l))
  rw [row_emb off inb jj h0 h1 u l, after_ix2]
  exact hw u l

/-- Row `jj`'s indices lie in the rectangle of a store of that row. -/
theorem row_mem (off : Fin 2 → ℕ) (inb : ∀ a, off a + S1x128.size a ≤ S3x128.size a) (jj : Fin 3)
    (h0 : off 0 = jj.val) (h1 : off 1 = 0) (l : Fin 128) :
    ix2 jj l ∈ (Rect.unit (s := S3x128) off S1x128.size inb).set := by
  rw [← row_emb off inb jj h0 h1 0 l]
  exact LoadRect.idx_mem _ _

/-- ONE TRIP. Over any prior contents `base`, the pieces trip `k` writes, computed from contents `f`, leave at row
    `j` and lane `l` what `f` reads there plus the chunk's column sum. -/
theorem trip_read (𝒱 : Variants) (c : Dev nD) (bd : Option 𝒱.V) (i : grid0.Coords)
    (arg2 : Memref sig .tc .vmem S1x16384x128 .f32) (harg2 : arg2.IsWhole)
    (arg3 : Memref sig .tc .vmem S1x16384x128 .i32) (harg3 : arg3.IsWhole)
    (arg4 : Memref sig .tc .vmem S1x3x128 .f32) (harg4 : arg4.IsWhole)
    (arg5 : Memref sig .tc .vmem S3x128 .f32) (harg5 : arg5.IsWhole)
    (X2 : BufTy.Contents (Elt Ideal) arg2.view.ty) (X3 : BufTy.Contents (Elt Ideal) arg3.view.ty)
    (k : Fin k0_t1_loop.trips) (base f : BufTy.Contents (Elt Ideal) arg5.view.ty) (j : Fin 3) (l : Fin 128) :
    arg5.view.read (Elt Ideal) (arg5.view.writes (Elt Ideal) base
        (tripL_k0_t1 (F := Ideal) 𝒱 c bd i arg2 harg2 arg3 harg3 arg4 harg4 arg5 harg5 X2 X3 k f)) (ix2 j l)
      = arg5.view.read (Elt Ideal) f (ix2 j l)
        + chunk (arg2.view.read (Elt Ideal) X2) (arg3.view.read (Elt Ideal) X3) k.val j l := by
  unfold tripL_k0_t1
  unfold trip_k0_t1
  dsimp only
  unfold trip_k0_t1.sl.r trip_k0_t1.sl.v29 trip_k0_t1.sl.v36
  rw [← after_ix2 (arg5.view.read (Elt Ideal) f) (chunk (arg2.view.read (Elt Ideal) X2) (arg3.view.read (Elt Ideal) X3) k.val) j l]
  refine View.read_writes_apply_of_pieces arg5.view base
    (after (arg5.view.read (Elt Ideal) f) (chunk (arg2.view.read (Elt Ideal) X2) (arg3.view.read (Elt Ideal) X3) k.val))
    _ ?pieces (ix2 j l) ?cover
  case pieces =>
    intro p hp
    simp only [List.mem_cons, List.mem_nil_iff, or_false] at hp
    rcases hp with rfl | rfl | rfl
    · refine piece_agrees _ _ ![2, 0] inb_S3x128_S1x128_2_0 2 rfl rfl _ (fun u l' => ?_)
      refine (pay8_apply _ _ u l').trans ?_
      refine congrArg₂ (· + ·) (congrArg (arg5.view.read (Elt Ideal) f) (row_emb ![2, 0] inb_S3x128_S1x128_2_0 2 rfl rfl u l')) ?_
      refine Finset.sum_congr rfl fun r _ => ?_
      show Cert.Spec.termCnt 0 (arg3.view.read (Elt Ideal) X3 ((Rect.unit (s := S1x16384x128) (k0_off1 k) S1x2048x128.size (k0_off1_inb k)).idx (ix3 (0 : Fin 1) r l'))) = _
      rw [chunk_idx k (k0_off1_inb k) r l']
      rfl
    · refine piece_agrees _ _ ![1, 0] inb_S3x128_S1x128_1_0 1 rfl rfl _ (fun u l' => ?_)
      refine (pay7_apply _ _ _ u l').trans ?_
      refine congrArg₂ (· + ·) (congrArg (arg5.view.read (Elt Ideal) f) (row_emb ![1, 0] inb_S3x128_S1x128_1_0 1 rfl rfl u l')) ?_
      refine Finset.sum_congr rfl fun r _ => ?_
      show Cert.Spec.termPos (arg2.view.read (Elt Ideal) X2 ((Rect.unit (s := S1x16384x128) (k0_off1 k) S1x2048x128.size (k0_off1_inb k)).idx (ix3 (0 : Fin 1) r l')))
          (arg3.view.read (Elt Ideal) X3 ((Rect.unit (s := S1x16384x128) (k0_off1 k) S1x2048x128.size (k0_off1_inb k)).idx (ix3 (0 : Fin 1) r l'))) = _
      rw [chunk_idx k (k0_off1_inb k) r l']
      rfl
    · refine piece_agrees _ _ ![0, 0] inb_S3x128_S1x128_0_0 0 rfl rfl _ (fun u l' => ?_)
      refine (pay6_apply _ _ u l').trans ?_
      refine congrArg₂ (· + ·) (congrArg (arg5.view.read (Elt Ideal) f) (row_emb ![0, 0] inb_S3x128_S1x128_0_0 0 rfl rfl u l')) ?_
      refine Finset.sum_congr rfl fun r _ => ?_
      show arg2.view.read (Elt Ideal) X2 ((Rect.unit (s := S1x16384x128) (k0_off1 k) S1x2048x128.size (k0_off1_inb k)).idx (ix3 (0 : Fin 1) r l')) = _
      rw [chunk_idx k (k0_off1_inb k) r l']
      rfl
  case cover =>
    match j with
    | 0 => exact ⟨_, List.mem_cons_of_mem _ (List.mem_cons_of_mem _ List.mem_cons_self), row_mem ![0, 0] inb_S3x128_S1x128_0_0 0 rfl rfl l⟩
    | 1 => exact ⟨_, List.mem_cons_of_mem _ List.mem_cons_self, row_mem ![1, 0] inb_S3x128_S1x128_1_0 1 rfl rfl l⟩
    | 2 => exact ⟨_, List.mem_cons_self, row_mem ![2, 0] inb_S3x128_S1x128_2_0 2 rfl rfl l⟩

end Cert.KernelIdeal.Trip

end
-- ==== Proof.LoopValue.lean ====
/-
  The inner loop, all trips: by induction on the number of trips done, the accumulator read at row `j` and
  lane `l` holds what it held at loop entry plus the column sums of the chunks walked so far. Once one trip
  has run, every row has been stored, so the same holds over ANY prior contents of the buffer the pieces are
  written to.
-/
import proofs.«140280_j23819888623694_2_alg».proof.Proof.TripValue

set_option maxRecDepth 16384

noncomputable section

namespace Cert.KernelIdeal.Trip

open Cert.KernelIdeal Cert.KernelIdeal.Gen Cert.KernelIdeal.Chunk
open Idealize.ShloMosaic Idealize.ShloMosaic.ValueIdx Idealize.ShloMosaic.TcCoe Idealize.SL.Sem

/-- The loop runs eight trips. -/
theorem trips_eq : k0_t1_loop.trips = 8 := by decide

variable (𝒱 : Variants) (c : Dev nD) (bd : Option 𝒱.V) (i : grid0.Coords)
    (arg2 : Memref sig .tc .vmem S1x16384x128 .f32) (harg2 : arg2.IsWhole)
    (arg3 : Memref sig .tc .vmem S1x16384x128 .i32) (harg3 : arg3.IsWhole)
    (arg4 : Memref sig .tc .vmem S1x3x128 .f32) (harg4 : arg4.IsWhole)
    (arg5 : Memref sig .tc .vmem S3x128 .f32) (harg5 : arg5.IsWhole)
    (X2 : BufTy.Contents (Elt Ideal) arg2.view.ty) (X3 : BufTy.Contents (Elt Ideal) arg3.view.ty)

/-- After `n` trips from contents `G`: `G` plus the first `n` chunks' column sums. -/
theorem loop_read_self (G : BufTy.Contents (Elt Ideal) arg5.view.ty) (n : ℕ) (hn : n ≤ k0_t1_loop.trips)
    (j : Fin 3) (l : Fin 128) :
    arg5.view.read (Elt Ideal) (arg5.view.writes (Elt Ideal) G
        (pb_k0_t1 (F := Ideal) 𝒱 c bd i arg2 harg2 arg3 harg3 arg4 harg4 arg5 harg5 X2 X3 G n)) (ix2 j l)
      = arg5.view.read (Elt Ideal) G (ix2 j l)
        + ∑ k ∈ Finset.range n, chunk (arg2.view.read (Elt Ideal) X2) (arg3.view.read (Elt Ideal) X3) k j l := by
  induction n with
  | zero =>
    show arg5.view.read (Elt Ideal) (arg5.view.writes (Elt Ideal) G []) (ix2 j l) = _
    rw [View.writes_nil, Finset.range_zero, Finset.sum_empty, add_zero]
  | succ n ih =>
    have hlt : n < k0_t1_loop.trips := hn
    have e : pb_k0_t1 (F := Ideal) 𝒱 c bd i arg2 harg2 arg3 harg3 arg4 harg4 arg5 harg5 X2 X3 G (n + 1)
        = tripL_k0_t1 (F := Ideal) 𝒱 c bd i arg2 harg2 arg3 harg3 arg4 harg4 arg5 harg5 X2 X3 ⟨n, hlt⟩
            (arg5.view.writes (Elt Ideal) G (pb_k0_t1 (F := Ideal) 𝒱 c bd i arg2 harg2 arg3 harg3 arg4 harg4 arg5 harg5 X2 X3 G n))
          ++ pb_k0_t1 (F := Ideal) 𝒱 c bd i arg2 harg2 arg3 harg3 arg4 harg4 arg5 harg5 X2 X3 G n :=
      pb_k0_t1_succ (F := Ideal) 𝒱 c bd i arg2 harg2 arg3 harg3 arg4 harg4 arg5 harg5 X2 X3 G ⟨n, hlt⟩
    rw [e, View.writes_append, trip_read, ih (Nat.le_of_lt hlt), Finset.sum_range_succ, add_assoc]

/-- After at least one trip the same reads over any prior contents `base`. -/
theorem loop_read (base G : BufTy.Contents (Elt Ideal) arg5.view.ty) (n : ℕ) (hlt : n < k0_t1_loop.trips)
    (j : Fin 3) (l : Fin 128) :
    arg5.view.read (Elt Ideal) (arg5.view.writes (Elt Ideal) base
        (pb_k0_t1 (F := Ideal) 𝒱 c bd i arg2 harg2 arg3 harg3 arg4 harg4 arg5 harg5 X2 X3 G (n + 1))) (ix2 j l)
      = arg5.view.read (Elt Ideal) G (ix2 j l)
        + ∑ k ∈ Finset.range (n + 1), chunk (arg2.view.read (Elt Ideal) X2) (arg3.view.read (Elt Ideal) X3) k j l := by
  have e : pb_k0_t1 (F := Ideal) 𝒱 c bd i arg2 harg2 arg3 harg3 arg4 harg4 arg5 harg5 X2 X3 G (n + 1)
      = tripL_k0_t1 (F := Ideal) 𝒱 c bd i arg2 harg2 arg3 harg3 arg4 harg4 arg5 harg5 X2 X3 ⟨n, hlt⟩
          (arg5.view.writes (Elt Ideal) G (pb_k0_t1 (F := Ideal) 𝒱 c bd i arg2 harg2 arg3 harg3 arg4 harg4 arg5 harg5 X2 X3 G n))
        ++ pb_k0_t1 (F := Ideal) 𝒱 c bd i arg2 harg2 arg3 harg3 arg4 harg4 arg5 harg5 X2 X3 G n :=
    pb_k0_t1_succ (F := Ideal) 𝒱 c bd i arg2 harg2 arg3 harg3 arg4 harg4 arg5 harg5 X2 X3 G ⟨n, hlt⟩
  rw [e, View.writes_append, trip_read,
    loop_read_self 𝒱 c bd i arg2 harg2 arg3 harg3 arg4 harg4 arg5 harg5 X2 X3 G n (Nat.le_of_lt hlt),
    Finset.sum_range_succ, add_assoc]

end Cert.KernelIdeal.Trip

end
-- ==== Proof.CaseValue.lean ====
/-
  What the kernel body leaves at one grid point, case by case.

  At the first point of a half the accumulator is zeroed and the eight chunks of the point's block are added;
  at the other points the eight chunks are added to what the point before left; at the last point of a half
  the accumulator is then copied to the output block. `pointSum x0 x1 j l` is the column sum, over all 16384
  rows of the point's block, of the entries' contributions to accumulator row `j`, at lane `l`.
-/
import proofs.«140280_j23819888623694_2_alg».proof.Proof.Gen.KernelIdeal.Frame
import proofs.«140280_j23819888623694_2_alg».proof.Proof.LoopValue

set_option maxRecDepth 16384

noncomputable section

namespace Cert.KernelIdeal.Case

open Cert.KernelIdeal Cert.KernelIdeal.Gen Cert.KernelIdeal.Chunk Cert.KernelIdeal.Trip
open Idealize.ShloMosaic Idealize.ShloMosaic.ValueIdx Idealize.ShloMosaic.TcCoe Idealize.SL.Sem

/-- The eight chunks of a block together. -/
def pointSum (x0 : S1x16384x128.Idx → EReal) (x1 : S1x16384x128.Idx → BitVec 32) (j : Fin 3) (l : Fin 128) : EReal :=
  ∑ k ∈ Finset.range 8, chunk x0 x1 k j l

theorem hz2 : (![0, 0] : Fin 2 → ℕ) = fun _ => 0 := by funext a; fin_cases a <;> rfl
theorem hz3 : (![0, 0, 0] : Fin 3 → ℕ) = fun _ => 0 := by funext a; fin_cases a <;> rfl

/-- The rectangle of the whole shape at zero offsets sends every index to itself. -/
theorem unit_zero_idx {S : Shape} {off : Fin S.rank → ℕ} (h : off = fun _ => 0) (inb : ∀ a, off a + S.size a ≤ S.size a)
    (x : S.Idx) : (Rect.unit off S.size inb).idx x = x := by
  subst h
  show (Rect.whole S).emb x = x
  rw [Rect.emb_whole_apply]

/-- One store of a whole buffer leaves its payload, whatever was there. -/
theorem read_fill {sg : RefSig} {κ : Kind} {sp : Space} {S : Shape} {e : EltTy} (v : View sg κ sp S e)
    (base : v.ty.Contents (Elt Ideal)) {off : Fin S.rank → ℕ} (h : off = fun _ => 0)
    (inb : ∀ a, off a + S.size a ≤ S.size a) (w : S.Idx → Elt Ideal e) (y : S.Idx) :
    v.read (Elt Ideal) (v.writes (Elt Ideal) base [⟨Rect.unit off S.size inb, w⟩]) y = w y := by
  have e := View.read_writes_cons_emb v base (Rect.unit off S.size inb) w [] y
  rw [show (Rect.unit off S.size inb).emb y = y from unit_zero_idx h inb y] at e
  exact e

/-- The accumulator's buffer is a whole buffer. -/
theorem hS : (scM0_0 : Memref sig .tc .vmem S3x128 .f32).IsWhole := Memref.isWhole_whole _

/-- The zero fill reads zero everywhere. -/
theorem pay1_apply (y : S3x128.Idx) : k0_pay1 (F := Ideal) y = 0 := by
  unfold k0_pay1
  exact (congrFun (shapeCast_self _ shapeCasts_S3x128_S3x128) y).trans Ideal.ofBits_zero_f32

section
variable (c : Dev nD) (i : grid0.Coords)
    (arg2 : Memref sig .tc .vmem S1x16384x128 .f32) (harg2 : arg2.IsWhole)
    (arg3 : Memref sig .tc .vmem S1x16384x128 .i32) (harg3 : arg3.IsWhole)
    (arg4 : Memref sig .tc .vmem S1x3x128 .f32) (harg4 : arg4.IsWhole)
    (x0 : Vec Ideal S1x16384x128 .f32) (x1 : Vec Ideal S1x16384x128 .i32)

/-- The first point of a half: the accumulator is zeroed, then gains the block's column sums. -/
theorem sout_A (hc0 : cond0_0 i) (hc1 : ¬cond0_1 i) (j : Fin 3) (l : Fin 128) :
    sout0_A_0 (F := Ideal) c i arg2 harg2 arg3 harg3 arg4 harg4 scM0_0 hS hc0 hc1 x0 x1 (ix2 j l)
      = pointSum x0 x1 j l := by
  unfold sout0_A_0
  have hL : (kernelRun0_A (F := Ideal) c i arg2 harg2 arg3 harg3 arg4 harg4 scM0_0 hS hc0 hc1 x0 x1).2.1
      = pb_k0_t1 (F := Ideal) Variants.none c none i arg2 harg2 arg3 harg3 arg4 harg4 scM0_0 hS
          (harg2.unread x0) (harg3.unread x1)
          (scM0_0.view.writes (Elt Ideal) scM0_0.view.junk (kernelRun0_A.sl.HS0_1 (F := Ideal))) k0_t1_loop.trips
        ++ kernelRun0_A.sl.HS0_1 (F := Ideal) := by
    unfold kernelRun0_A; rfl
  rw [hL, View.writes_append]
  refine (loop_read_self Variants.none c none i arg2 harg2 arg3 harg3 arg4 harg4 scM0_0 hS _ _ _ k0_t1_loop.trips
    le_rfl j l).trans ?_
  rw [Memref.IsWhole.read_unread, Memref.IsWhole.read_unread, trips_eq]
  unfold kernelRun0_A.sl.HS0_1
  rw [read_fill _ _ hz2, pay1_apply, zero_add]
  rfl

/-- A point that is neither first nor last in its half: the accumulator gains the block's column sums. -/
theorem sout_B (hc0 : ¬cond0_0 i) (hc1 : ¬cond0_1 i) (xs0 : Vec Ideal S3x128 .f32) (j : Fin 3) (l : Fin 128) :
    sout0_B_0 (F := Ideal) c i arg2 harg2 arg3 harg3 arg4 harg4 scM0_0 hS hc0 hc1 x0 x1 xs0 (ix2 j l)
      = xs0 (ix2 j l) + pointSum x0 x1 j l := by
  unfold sout0_B_0
  have hL : (kernelRun0_B (F := Ideal) c i arg2 harg2 arg3 harg3 arg4 harg4 scM0_0 hS hc0 hc1 x0 x1 xs0).2.1
      = pb_k0_t1 (F := Ideal) Variants.none c none i arg2 harg2 arg3 harg3 arg4 harg4 scM0_0 hS
          (harg2.unread x0) (harg3.unread x1) (hS.unread xs0) k0_t1_loop.trips := by
    unfold kernelRun0_B; rfl
  rw [hL, trips_eq]
  refine (loop_read Variants.none c none i arg2 harg2 arg3 harg3 arg4 harg4 scM0_0 hS _ _ VS0_0.junk _ 7
    (by rw [trips_eq]; norm_num) j l).trans ?_
  rw [Memref.IsWhole.read_unread, Memref.IsWhole.read_unread, Memref.IsWhole.read_unread]
  rfl

/-- The last point of a half: the accumulator gains the block's column sums, as at the other points. -/
theorem sout_C (hc0 : ¬cond0_0 i) (hc1 : cond0_1 i) (xs0 : Vec Ideal S3x128 .f32) (j : Fin 3) (l : Fin 128) :
    sout0_C_0 (F := Ideal) c i arg2 harg2 arg3 harg3 arg4 harg4 scM0_0 hS hc0 hc1 x0 x1 xs0 (ix2 j l)
      = xs0 (ix2 j l) + pointSum x0 x1 j l := by
  unfold sout0_C_0
  have hL : (kernelRun0_C (F := Ideal) c i arg2 harg2 arg3 harg3 arg4 harg4 scM0_0 hS hc0 hc1 x0 x1 xs0).2.1
      = pb_k0_t1 (F := Ideal) Variants.none c none i arg2 harg2 arg3 harg3 arg4 harg4 scM0_0 hS
          (harg2.unread x0) (harg3.unread x1) (hS.unread xs0) k0_t1_loop.trips := by
    unfold kernelRun0_C; rfl
  rw [hL, trips_eq]
  refine (loop_read Variants.none c none i arg2 harg2 arg3 harg3 arg4 harg4 scM0_0 hS _ _ VS0_0.junk _ 7
    (by rw [trips_eq]; norm_num) j l).trans ?_
  rw [Memref.IsWhole.read_unread, Memref.IsWhole.read_unread, Memref.IsWhole.read_unread]
  rfl

/-- … and the output block is then stored from the accumulator: row `j`, lane `l` of the block is the accumulator there. -/
theorem out_C (hc0 : ¬cond0_0 i) (hc1 : cond0_1 i) (xs0 : Vec Ideal S3x128 .f32) (u : Fin 1) (j : Fin 3) (l : Fin 128) :
    out0_C_2 (F := Ideal) c i arg2 harg2 arg3 harg3 arg4 harg4 scM0_0 hS hc0 hc1 x0 x1 xs0 (ix3 u j l)
      = xs0 (ix2 j l) + pointSum x0 x1 j l := by
  unfold out0_C_2
  have hL : (kernelRun0_C (F := Ideal) c i arg2 harg2 arg3 harg3 arg4 harg4 scM0_0 hS hc0 hc1 x0 x1 xs0).1
      = [⟨Rect.unit ![0, 0, 0] S1x3x128.size inb_S1x3x128_S1x3x128_0_0_0,
          k0_pay3 (kernelRun0_C.sl.v7 (F := Ideal) c i arg2 harg2 arg3 harg3 arg4 harg4 scM0_0 hS x0 x1 xs0)⟩] := by
    unfold kernelRun0_C; rfl
  rw [hL, read_fill _ _ hz3]
  unfold k0_pay3
  refine (shapeCast_ab_1ab_apply _ shapeCasts_S3x128_S1x3x128 u j l).trans ?_
  unfold kernelRun0_C.sl.v7
  show scM0_0.view.read (Elt Ideal) (scM0_0.view.writes (Elt Ideal) (hS.unread xs0)
      (pb_k0_t1 (F := Ideal) Variants.none c none i arg2 harg2 arg3 harg3 arg4 harg4 scM0_0 hS
        (harg2.unread x0) (harg3.unread x1) (hS.unread xs0) k0_t1_loop.trips))
      ((Rect.unit (s := S3x128) ![0, 0] S3x128.size inb_S3x128_S3x128_0_0).idx (ix2 j l)) = _
  rw [unit_zero_idx hz2]
  refine (loop_read_self Variants.none c none i arg2 harg2 arg3 harg3 arg4 harg4 scM0_0 hS _ _ _ k0_t1_loop.trips
    le_rfl j l).trans ?_
  rw [Memref.IsWhole.read_unread, Memref.IsWhole.read_unread, Memref.IsWhole.read_unread, trips_eq]
  rfl

end

end Cert.KernelIdeal.Case

end
-- ==== Proof.GridValue.lean ====
/-
  The accumulator across the grid.

  The grid has 16 points, 8 per half of the data; point `t` works on block `t % 8` of half `t / 8`. By induction
  on `t`: after point `t` the accumulator, at row `j` and lane `l`, is the sum of the column sums of the blocks
  of `t`'s half walked so far (points `t - t % 8` to `t`); and at the last point of a half the output block holds
  the sum over all eight blocks of the half.
-/
import proofs.«140280_j23819888623694_2_alg».proof.Proof.CaseValue

set_option maxRecDepth 16384

noncomputable section

namespace Cert.KernelIdeal.GridV

open Cert.KernelIdeal Cert.KernelIdeal.Gen Cert.KernelIdeal.Trip Cert.KernelIdeal.Case
open Idealize.ShloMosaic Idealize.ShloMosaic.ValueIdx Idealize.ShloMosaic.TcCoe Idealize.SL.Sem

variable (m : (ℓ : Loc nD τ sig) → Buf (Elt Ideal) ℓ) (c : Dev nD)

/-- The column sums of the block point `t` works on (zero past the grid). -/
def blockSum (t : ℕ) (j : Fin 3) (l : Fin 128) : EReal :=
  if h : t < cfg0.N then pointSum (iblk m c 0 ⟨t, h⟩) (iblk m c 1 ⟨t, h⟩) j l else 0

theorem blockSum_lt (t : Fin cfg0.N) (j : Fin 3) (l : Fin 128) :
    blockSum m c t.val j l = pointSum (iblk m c 0 t) (iblk m c 1 t) j l := by
  unfold blockSum; rw [dif_pos t.isLt]

/-- At the first point of a half the accumulator ends at the block's column sums. -/
theorem acc_first (t : Fin cfg0.N) (h0 : t.val % 8 = 0) (j : Fin 3) (l : Fin 128) :
    (outsAt0 m c t.val t.isLt).2 (ix2 j l) = blockSum m c t.val j l := by
  have h1 : ¬ t.val % 8 = 7 := by omega
  rw [outsAt0_A m c t h0 h1, blockSum_lt]
  exact sout_A c _ _ _ _ _ _ _ (iblk m c 0 t) (iblk m c 1 t) _ _ j l

/-- At any other point it gains the block's column sums. -/
theorem acc_next (t : Fin cfg0.N) (h0 : ¬ t.val % 8 = 0) (j : Fin 3) (l : Fin 128) :
    (outsAt0 m c t.val t.isLt).2 (ix2 j l)
      = (outsAt0 m c (t.val - 1) (Nat.lt_of_le_of_lt (Nat.sub_le _ _) t.isLt)).2 (ix2 j l) + blockSum m c t.val j l := by
  rw [blockSum_lt]
  by_cases h1 : t.val % 8 = 7
  · rw [outsAt0_C m c t h0 h1]
    exact sout_C c _ _ _ _ _ _ _ (iblk m c 0 t) (iblk m c 1 t) _ _ _ j l
  · rw [outsAt0_B m c t h0 h1]
    exact sout_B c _ _ _ _ _ _ _ (iblk m c 0 t) (iblk m c 1 t) _ _ _ j l

/-- At the last point of a half the output block is what the accumulator ends at. -/
theorem out_last (t : Fin cfg0.N) (h1 : t.val % 8 = 7) (u : Fin 1) (j : Fin 3) (l : Fin 128) :
    (outsAt0 m c t.val t.isLt).1 (ix3 u j l)
      = (outsAt0 m c (t.val - 1) (Nat.lt_of_le_of_lt (Nat.sub_le _ _) t.isLt)).2 (ix2 j l) + blockSum m c t.val j l := by
  have h0 : ¬ t.val % 8 = 0 := by omega
  rw [blockSum_lt, outsAt0_C m c t h0 h1]
  exact out_C c _ _ _ _ _ _ _ (iblk m c 0 t) (iblk m c 1 t) (fun h => h0 ((hcond0_0 t).mp h)) ((hcond0_1 t).mpr h1) _ u j l

/-- THE ACCUMULATOR after point `t`: the blocks of `t`'s half up to `t`. -/
theorem acc_eq : ∀ (t : ℕ) (ht : t < cfg0.N) (j : Fin 3) (l : Fin 128),
    (outsAt0 m c t ht).2 (ix2 j l) = ∑ i' ∈ Finset.range (t % 8 + 1), blockSum m c (t - t % 8 + i') j l := by
  intro t
  induction t with
  | zero =>
    intro ht j l
    refine (acc_first m c ⟨0, ht⟩ rfl j l).trans ?_
    simp
  | succ n ih =>
    intro ht j l
    by_cases h0 : (n + 1) % 8 = 0
    · refine (acc_first m c ⟨n + 1, ht⟩ h0 j l).trans ?_
      rw [h0]; simp
    · refine (acc_next m c ⟨n + 1, ht⟩ h0 j l).trans ?_
      refine (congrArg (fun z => z + blockSum m c (n + 1) j l) (ih (Nat.lt_of_succ_lt ht) j l)).trans ?_
      have e1 : (n + 1) % 8 = n % 8 + 1 := by omega
      have e2 : n + 1 - (n + 1) % 8 = n - n % 8 := by omega
      have e3 : n - n % 8 + (n % 8 + 1) = n + 1 := by omega
      rw [e2, e1, Finset.sum_range_succ _ (n % 8 + 1), e3]

/-- THE OUTPUT BLOCK at the last point of a half: all eight blocks of the half. -/
theorem out_eq (t : Fin cfg0.N) (h1 : t.val % 8 = 7) (u : Fin 1) (j : Fin 3) (l : Fin 128) :
    (outsAt0 m c t.val t.isLt).1 (ix3 u j l) = ∑ i' ∈ Finset.range 8, blockSum m c (t.val - 7 + i') j l := by
  refine (out_last m c t h1 u j l).trans ?_
  rw [acc_eq m c (t.val - 1) (Nat.lt_of_le_of_lt (Nat.sub_le _ _) t.isLt) j l]
  have e1 : (t.val - 1) % 8 + 1 = 7 := by omega
  have e2 : t.val - 1 - (t.val - 1) % 8 = t.val - 7 := by omega
  have e3 : t.val - 7 + 7 = t.val := by omega
  rw [e1, e2, Finset.sum_range_succ _ 7, e3]

end Cert.KernelIdeal.GridV

end
-- ==== Proof.ArrayValue.lean ====
/-
  The output array after the region.

  Output window 2 has one block [1, 3, 128] per half `b`, written back at the last point of the half, point
  `8 b + 7`. So after the run the output array, at (b, j, l), is the sum over the eight blocks of half `b` of
  the blocks' column sums: `halfSum m c b j l`.
-/
import proofs.«140280_j23819888623694_2_alg».proof.Proof.GridValue

set_option maxRecDepth 16384

noncomputable section

namespace Cert.KernelIdeal.ArrayV

open Cert.KernelIdeal Cert.KernelIdeal.Gen Cert.KernelIdeal.Trip Cert.KernelIdeal.Case Cert.KernelIdeal.GridV
open Idealize.ShloMosaic Idealize.ShloMosaic.ValueIdx Idealize.ShloMosaic.TcCoe Idealize.SL.Sem

variable (m : (ℓ : Loc nD τ sig) → Buf (Elt Ideal) ℓ) (c : Dev nD)

/-- The printed index maps, decided over the grid: point `t` reads block `t % 8` of half `t / 8` of both inputs and
    belongs to output block `t / 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The output block is written back exactly at the last point of each half. -/
theorem flush_iff : ∀ t : Fin cfg0.N, (cfg0.win 2).flush t = true ↔ t.val % 8 = 7 :=
  (by decide +kernel : ∀ t : Fin grid0.N, _)

/-- The sum over the eight blocks of half `b` of the blocks' column sums. -/
def halfSum (b : ℕ) (j : Fin 3) (l : Fin 128) : EReal := ∑ i' ∈ Finset.range 8, blockSum m c (8 * b + i') j l

/-- What the output array ends holding. -/
def outArr : S2x3x128.Idx → EReal := fun y =>
  halfSum m c (y 0).val ⟨(y 1).val, (y 1).isLt⟩ ⟨(y 2).val, (y 2).isLt⟩

theorem outArr_ix3 (b : Fin 2) (j : Fin 3) (l : Fin 128) : outArr m c (ix3 b j l) = halfSum m c b.val j l := rfl

/-- WHAT A FLUSHING POINT WRITES BACK is its block of `outArr`. -/
theorem flushed_eq (t : Fin cfg0.N) (hf : (cfg0.win 2).flush t = true) :
    (dats m 0 c).flushed 2 t = ((cfg0.win 2).blk t).view.read (Elt Ideal) (outArr m c) := by
  have h7 : t.val % 8 = 7 := (flush_iff t).mp hf
  have hN : t.val < 16 := lt_of_lt_of_eq t.isLt (show cfg0.N = 16 from N_0)
  obtain ⟨-, -, -, -, -, -, e0, e1, e2⟩ := idx_facts t
  show (cfg0.win 2).cut (grid0.coords t) ((dats m 0 c).after 2 t) = _
  rw [after0_2]
  funext y
  obtain ⟨u, j, l, rfl⟩ : ∃ (u : Fin 1) (j : Fin 3) (l : Fin 128), y = ix3 u j l := ⟨y 0, y 1, y 2, eq_ix3 y⟩
  show (outsAt0 m c t.val t.isLt).1 (ix3 u j l) = outArr m c (((cfg0.win 2).blk t).view.emb (ix3 u j l))
  have hb : t.val / 8 < 2 := by omega
  have hy : ((cfg0.win 2).blk t).view.emb (ix3 u j l) = ix3 (⟨t.val / 8, hb⟩ : Fin 2) j l := by
    funext a
    apply Fin.ext
    match a with
    | ⟨0, _⟩ =>
      show win0_2.index t (0 : Fin 3) * 1 + 1 * u.val = t.val / 8
      have := u.isLt; omega
    | ⟨1, _⟩ =>
      show win0_2.index t (1 : Fin 3) * 3 + 1 * j.val = j.val
      omega
    | ⟨2, _⟩ =>
      show win0_2.index t (2 : Fin 3) * 128 + 1 * l.val = l.val
      omega
  rw [hy, outArr_ix3, out_eq m c t h7 u j l]
  unfold halfSum
  have e : 8 * (t.val / 8) = t.val - 7 := by omega
  show _ = ∑ i' ∈ Finset.range 8, blockSum m c (8 * (t.val / 8) + i') j l
  rw [e]

/-- An index of the output array is in point `t`'s block iff its half is the point's. -/
theorem mem_blk (t : Fin cfg0.N) (i : S2x3x128.Idx) :
    i ∈ ((cfg0.win 2).blk t).view.set ↔ ∀ a : Fin 3, win0_2.index t a * S1x3x128.size a ≤ (i a).val
      ∧ (i a).val < win0_2.index t a * S1x3x128.size a + S1x3x128.size a := by
  show i ∈ ((View.whole main_v2).slice (win0_2.rect t)).set ↔ _
  rw [View.set_slice_whole, Rect.mem_set_unit]
  exact Iff.rfl

/-- Every index of the output array is in the block of the last point of its half. -/
theorem cover (i : S2x3x128.Idx) :
    ∃ t : Fin cfg0.N, (cfg0.win 2).flush t = true ∧ i ∈ ((cfg0.win 2).blk t).view.set := by
  have hi0 : (i 0).val < 2 := (i 0).isLt
  have hi1 : (i 1).val < 3 := (i 1).isLt
  have hi2 : (i 2).val < 128 := (i 2).isLt
  have hN : cfg0.N = 16 := N_0
  have ht : 8 * (i 0).val + 7 < cfg0.N := by rw [hN]; omega
  refine ⟨⟨8 * (i 0).val + 7, ht⟩, (flush_iff _).mpr (by show (8 * (i 0).val + 7) % 8 = 7; omega), ?_⟩
  rw [mem_blk]
  obtain ⟨-, -, -, -, -, -, e0, e1, e2⟩ := idx_facts ⟨8 * (i 0).val + 7, ht⟩
  have e0' : win0_2.index ⟨8 * (i 0).val + 7, ht⟩ (0 : Fin 3) = (i 0).val := by
    rw [e0]; show (8 * (i 0).val + 7) / 8 = (i 0).val; omega
  intro a
  match a with
  | ⟨0, _⟩ =>
    show win0_2.index _ (0 : Fin 3) * 1 ≤ (i 0).val ∧ (i 0).val < win0_2.index _ (0 : Fin 3) * 1 + 1
    rw [e0']; omega
  | ⟨1, _⟩ =>
    show win0_2.index _ (1 : Fin 3) * 3 ≤ (i 1).val ∧ (i 1).val < win0_2.index _ (1 : Fin 3) * 3 + 3
    rw [e1]; omega
  | ⟨2, _⟩ =>
    show win0_2.index _ (2 : Fin 3) * 128 ≤ (i 2).val ∧ (i 2).val < win0_2.index _ (2 : Fin 3) * 128 + 128
    rw [e2]; omega

/-- THE OUTPUT ARRAY after the run. -/
theorem final : (dats m 0 c).arrAt 2 cfg0.N = outArr m c :=
  (dats m 0 c).arrAt_eq_of_cover 2 (outArr m c) (fun t hf => flushed_eq m c t hf) (cover)

end Cert.KernelIdeal.ArrayV

end
-- ==== Proof.SumLaws.lean ====
/-
  Rearrangement of finite sums over a flat array read in row-major order.

  An array of 2^25 = 33554432 entries is read as a block of shape [2, 131072, 128]: the flat
  position of the entry in half b, row `row`, lane l is n = (b * 131072 + row) * 128 + l. Each half
  is walked in 8 blocks of 16384 rows and each block in 8 chunks of 2048 rows, so that
  row = i * 16384 + (k * 2048 + r). Summing a function of the flat position over halves, lanes,
  blocks, chunks and rows, in that nesting order, gives the sum over all flat positions. Only
  associativity and commutativity of the addition are used: every statement holds in any additive
  commutative monoid, and no subtraction or cancellation appears.

  The one general fact is `sum_mul`: a double sum over a < A and c < C of a function of a * C + c is
  the single sum over n < A * C, since (a, c) ↦ a * C + c is a bijection from pairs onto the
  numbers below A * C. `sum_flat` applies it four times. `sum_idx` turns a sum over the index set of a
  one-axis shape into the sum over the axis' coordinate.
-/
import Mathlib.Algebra.BigOperators.Fin
import Mathlib.Logic.Equiv.Fin.Basic
import Idealize.ShloMosaic.Lib.ValueIdx

noncomputable section

open scoped BigOperators

namespace Cert.SumLaws

open Idealize.ShloMosaic

/-- A double sum over `a < A` and `c < C` of a function of `a * C + c` is the sum of that function over all
    `n < A * C`: the map `(a, c) ↦ a * C + c` is a bijection from the pairs onto the numbers below `A * C`.
    The bound of the single sum is a number `N` given with a proof of `N = A * C`, so that it may be a literal. -/
theorem sum_mul {M : Type*} [AddCommMonoid M] {A C : ℕ} (N : ℕ) (hN : N = A * C) (g : ℕ → M) :
    ∑ a : Fin A, ∑ c : Fin C, g (a.val * C + c.val) = ∑ n : Fin N, g n.val := by
  subst hN
  rw [← Equiv.sum_comp (finProdFinEquiv (m := A) (n := C)) (fun n => g n.val), Fintype.sum_prod_type]
  refine Finset.sum_congr rfl fun a _ => Finset.sum_congr rfl fun c _ => ?_
  have h : a.val * C + c.val = c.val + C * a.val := by rw [Nat.mul_comm, Nat.add_comm]
  rw [h]
  rfl

/-- The rows of one half, walked as 8 blocks of 8 chunks of 2048 rows: the triple sum over block `i`, chunk `k` and
    row-in-chunk `r` of a function of `i * 16384 + (k * 2048 + r)` is the sum over all 131072 rows. -/
theorem sum_rows {M : Type*} [AddCommMonoid M] (h : ℕ → M) :
    ∑ i : Fin 8, ∑ k : Fin 8, ∑ r : Fin 2048, h (i.val * 16384 + (k.val * 2048 + r.val))
      = ∑ row : Fin 131072, h row.val := by
  calc ∑ i : Fin 8, ∑ k : Fin 8, ∑ r : Fin 2048, h (i.val * 16384 + (k.val * 2048 + r.val))
      = ∑ i : Fin 8, ∑ m : Fin 16384, h (i.val * 16384 + m.val) := by
        refine Finset.sum_congr rfl fun i _ => ?_
        exact sum_mul (A := 8) (C := 2048) 16384 (by norm_num) (fun m => h (i.val * 16384 + m))
    _ = ∑ row : Fin 131072, h row.val := sum_mul (A := 8) (C := 16384) 131072 (by norm_num) h

/-- The sum over halves `b`, lanes `l`, blocks `i`, chunks `k` and rows `r` of a function of the flat position
    `(b * 131072 + (i * 16384 + (k * 2048 + r))) * 128 + l` is the sum of that function over all 2^25 flat positions. -/
theorem sum_flat {M : Type*} [AddCommMonoid M] (g : ℕ → M) :
    ∑ b : Fin 2, ∑ l : Fin 128, ∑ i : Fin 8, ∑ k : Fin 8, ∑ r : Fin 2048,
        g ((b.val * 131072 + (i.val * 16384 + (k.val * 2048 + r.val))) * 128 + l.val)
      = ∑ n : Fin 33554432, g n.val := by
  calc ∑ b : Fin 2, ∑ l : Fin 128, ∑ i : Fin 8, ∑ k : Fin 8, ∑ r : Fin 2048,
          g ((b.val * 131072 + (i.val * 16384 + (k.val * 2048 + r.val))) * 128 + l.val)
      = ∑ b : Fin 2, ∑ l : Fin 128, ∑ row : Fin 131072, g ((b.val * 131072 + row.val) * 128 + l.val) := by
        refine Finset.sum_congr rfl fun b _ => Finset.sum_congr rfl fun l _ => ?_
        exact sum_rows (fun m => g ((b.val * 131072 + m) * 128 + l.val))
    _ = ∑ b : Fin 2, ∑ row : Fin 131072, ∑ l : Fin 128, g ((b.val * 131072 + row.val) * 128 + l.val) := by
        refine Finset.sum_congr rfl fun b _ => ?_
        exact Finset.sum_comm
    _ = ∑ m : Fin 262144, ∑ l : Fin 128, g (m.val * 128 + l.val) :=
        sum_mul (A := 2) (C := 131072) 262144 (by norm_num) (fun m => ∑ l : Fin 128, g (m * 128 + l.val))
    _ = ∑ n : Fin 33554432, g n.val := sum_mul (A := 262144) (C := 128) 33554432 (by norm_num) g

/-- The index set of a one-axis shape of extent `N` is the coordinate range `Fin N`: an index `j` goes to its
    coordinate `j 0`, and a coordinate `n` comes back as the index `ix1 n`. -/
def idxEquiv1 {N : ℕ} : (⟨1, ![N]⟩ : Shape).Idx ≃ Fin N where
  toFun j := j 0
  invFun n := ValueIdx.ix1 n
  left_inv j := (ValueIdx.eq_ix1 j).symm
  right_inv _ := rfl

/-- A sum over the index set of a one-axis shape of extent `N` is the sum over the coordinate `n < N` of the summand
    at the index `ix1 n`. -/
theorem sum_idx {M : Type*} [AddCommMonoid M] {N : ℕ} (F : (⟨1, ![N]⟩ : Idealize.ShloMosaic.Shape).Idx → M) :
    ∑ j : (⟨1, ![N]⟩ : Idealize.ShloMosaic.Shape).Idx, F j
      = ∑ n : Fin N, F (Idealize.ShloMosaic.ValueIdx.ix1 n) := by
  rw [← Equiv.sum_comp (idxEquiv1 (N := N)).symm F]
  rfl

end Cert.SumLaws

end
-- ==== Proof.BlockRead.lean ====
/-
  The blocks as entries of the flat arguments, and the grand totals.

  The two arguments, of 2^25 entries each, are reshaped to [2, 131072, 128] before the region: entry
  (b, row, l) is flat entry (b * 131072 + row) * 128 + l. Point `t` stages rows [16384 (t % 8), 16384 (t % 8) + 16384)
  of half `t / 8`. So the column sums of the blocks, summed over the blocks of a half, over the lanes and over the
  two halves, run over every flat entry exactly once: the sum of the entries' contributions over the whole array.
-/
import proofs.«140280_j23819888623694_2_alg».proof.Proof.ArrayValue
import proofs.«140280_j23819888623694_2_alg».proof.Proof.SumLaws
import Idealize.ShloMosaic.Lib.StableHlo.Run

set_option maxRecDepth 16384

noncomputable section

namespace Cert.KernelIdeal.BlockV

open Cert.KernelIdeal Cert.KernelIdeal.Gen Cert.KernelIdeal.Trip Cert.KernelIdeal.Case Cert.KernelIdeal.GridV
open Cert.KernelIdeal.ArrayV
open Idealize.ShloMosaic Idealize.ShloMosaic.ValueIdx Idealize.ShloMosaic.TcCoe Idealize.SL.Sem Idealize.ShloMosaic.StableHlo

variable (m : (ℓ : Loc nD τ sig) → Buf (Elt Ideal) ℓ) (c : Dev nD)

/-- The region finds the scores reshaped to [2, 131072, 128]. -/
theorem V_v0 : (V m c main_v0 : S2x131072x128.Idx → EReal)
    = shapeCast S2x131072x128 (m ((c : Thread nD τ).loc main_arg0)) shapeCasts_S33554432_S2x131072x128 := by
  show StableHlo.after hostOps0 (fun b => m (c, b)) (Proc.devRef .tc main_v0) = _
  after_results
  rfl

/-- … and the labels. -/
theorem V_v1 : (V m c main_v1 : S2x131072x128.Idx → BitVec 32)
    = shapeCast S2x131072x128 (m ((c : Thread nD τ).loc main_arg1)) shapeCasts_S33554432_S2x131072x128 := by
  show StableHlo.after hostOps0 (fun b => m (c, b)) (Proc.devRef .tc main_v1) = _
  after_results
  rfl

/-- The reshape read at (b, row, l): the flat entry (b * 131072 + row) * 128 + l. -/
theorem reshape_apply {α : Type} (x : S33554432.Idx → α) (bv rowv : ℕ) (hb : bv < 2) (hrow : rowv < 131072) (l : Fin 128)
    (h : (bv * 131072 + rowv) * 128 + l.val < 33554432) :
    shapeCast S2x131072x128 x shapeCasts_S33554432_S2x131072x128 (ix3 (⟨bv, hb⟩ : Fin 2) (⟨rowv, hrow⟩ : Fin 131072) l)
      = x (ix1 ⟨(bv * 131072 + rowv) * 128 + l.val, h⟩) :=
  shapeCast_apply x _ _ _ (by rw [Shape.rowMajor_val_one, Shape.rowMajor_val_three]; rfl)

/-- Row `rowv` of point `t`'s block of the scores is row `16384 (t % 8) + rowv` of half `t / 8`. -/
theorem iblk0_apply (t : Fin cfg0.N) (rowv : ℕ) (hrow : rowv < 16384) (l : Fin 128) (hb : t.val / 8 < 2)
    (hr : t.val % 8 * 16384 + rowv < 131072) :
    iblk m c 0 t (ix3 (0 : Fin 1) (⟨rowv, hrow⟩ : Fin 16384) l)
      = V m c main_v0 (ix3 (⟨t.val / 8, hb⟩ : Fin 2) (⟨t.val % 8 * 16384 + rowv, hr⟩ : Fin 131072) l) := by
  obtain ⟨e0, e1, e2, -⟩ := idx_facts t
  unfold iblk
  show V m c main_v0 (((cfg0.win 0).blk t).view.emb (ix3 (0 : Fin 1) (⟨rowv, hrow⟩ : Fin 16384) l)) = _
  refine congrArg (V m c main_v0) ?_
  funext a
  apply Fin.ext
  match a with
  | ⟨0, _⟩ =>
    show win0_0.index t (0 : Fin 3) * 1 + 1 * 0 = t.val / 8
    omega
  | ⟨1, _⟩ =>
    show win0_0.index t (1 : Fin 3) * 16384 + 1 * rowv = t.val % 8 * 16384 + rowv
    rw [e1]; omega
  | ⟨2, _⟩ =>
    show win0_0.index t (2 : Fin 3) * 128 + 1 * l.val = l.val
    omega

/-- The same for the labels. -/
theorem iblk1_apply (t : Fin cfg0.N) (rowv : ℕ) (hrow : rowv < 16384) (l : Fin 128) (hb : t.val / 8 < 2)
    (hr : t.val % 8 * 16384 + rowv < 131072) :
    iblk m c 1 t (ix3 (0 : Fin 1) (⟨rowv, hrow⟩ : Fin 16384) l)
      = V m c main_v1 (ix3 (⟨t.val / 8, hb⟩ : Fin 2) (⟨t.val % 8 * 16384 + rowv, hr⟩ : Fin 131072) l) := by
  obtain ⟨-, -, -, e0, e1, e2, -⟩ := idx_facts t
  unfold iblk
  show V m c main_v1 (((cfg0.win 1).blk t).view.emb (ix3 (0 : Fin 1) (⟨rowv, hrow⟩ : Fin 16384) l)) = _
  refine congrArg (V m c main_v1) ?_
  funext a
  apply Fin.ext
  match a with
  | ⟨0, _⟩ =>
    show win0_1.index t (0 : Fin 3) * 1 + 1 * 0 = t.val / 8
    omega
  | ⟨1, _⟩ =>
    show win0_1.index t (1 : Fin 3) * 16384 + 1 * rowv = t.val % 8 * 16384 + rowv
    rw [e1]; omega
  | ⟨2, _⟩ =>
    show win0_1.index t (2 : Fin 3) * 128 + 1 * l.val = l.val
    omega

/-- The contribution of flat entry `n` to total `j` (zero past the array). -/
def flatTerm (j : Fin 3) (n : ℕ) : EReal :=
  if h : n < 33554432 then
    term j (m ((c : Thread nD τ).loc main_arg0) (ix1 ⟨n, h⟩)) (m ((c : Thread nD τ).loc main_arg1) (ix1 ⟨n, h⟩))
  else 0

/-- One entry of a chunk of a block is a flat entry: at point `t = 8 b + i'`, row `2048 k + r` of the block is flat
    entry ((b * 131072 + (16384 i' + (2048 k + r))) * 128 + l. -/
theorem entry_eq (t : Fin cfg0.N) (b : Fin 2) (i' : Fin 8) (htb : t.val = 8 * b.val + i'.val)
    (k : Fin 8) (r : Fin 2048) (l : Fin 128) (j : Fin 3) :
    term j (iblk m c 0 t (rowIdx k.val r l)) (iblk m c 1 t (rowIdx k.val r l))
      = flatTerm m c j ((b.val * 131072 + (i'.val * 16384 + (k.val * 2048 + r.val))) * 128 + l.val) := by
  have hb := b.isLt; have hi := i'.isLt; have hk := k.isLt; have hr := r.isLt; have hl := l.isLt
  have hn : (b.val * 131072 + (i'.val * 16384 + (k.val * 2048 + r.val))) * 128 + l.val < 33554432 := by omega
  have hrow : (2048 * k.val + r.val) % 16384 < 16384 := Nat.mod_lt _ (by norm_num)
  have hq : t.val / 8 = b.val := by omega
  have hm : t.val % 8 = i'.val := by omega
  have hmod : (2048 * k.val + r.val) % 16384 = k.val * 2048 + r.val := by
    rw [Nat.mod_eq_of_lt (by omega)]; omega
  have hb2 : t.val / 8 < 2 := by rw [hq]; exact hb
  have hr2 : t.val % 8 * 16384 + (2048 * k.val + r.val) % 16384 < 131072 := by rw [hm, hmod]; omega
  have e : (t.val / 8 * 131072 + (t.val % 8 * 16384 + (2048 * k.val + r.val) % 16384)) * 128 + l.val
      = (b.val * 131072 + (i'.val * 16384 + (k.val * 2048 + r.val))) * 128 + l.val := by rw [hq, hm, hmod]
  have hn2 : (t.val / 8 * 131072 + (t.val % 8 * 16384 + (2048 * k.val + r.val) % 16384)) * 128 + l.val < 33554432 := by
    rw [e]; exact hn
  have eI : (ix1 (⟨(t.val / 8 * 131072 + (t.val % 8 * 16384 + (2048 * k.val + r.val) % 16384)) * 128 + l.val, hn2⟩ : Fin 33554432) : S33554432.Idx)
      = ix1 ⟨(b.val * 131072 + (i'.val * 16384 + (k.val * 2048 + r.val))) * 128 + l.val, hn⟩ :=
    congrArg ix1 (Fin.ext e)
  have h0 : iblk m c 0 t (rowIdx k.val r l)
      = m ((c : Thread nD τ).loc main_arg0) (ix1 ⟨(b.val * 131072 + (i'.val * 16384 + (k.val * 2048 + r.val))) * 128 + l.val, hn⟩) := by
    refine (iblk0_apply m c t _ hrow l hb2 hr2).trans ?_
    rw [V_v0, reshape_apply _ _ _ hb2 hr2 l hn2, eI]
  have h1 : iblk m c 1 t (rowIdx k.val r l)
      = m ((c : Thread nD τ).loc main_arg1) (ix1 ⟨(b.val * 131072 + (i'.val * 16384 + (k.val * 2048 + r.val))) * 128 + l.val, hn⟩) := by
    refine (iblk1_apply m c t _ hrow l hb2 hr2).trans ?_
    rw [V_v1, reshape_apply _ _ _ hb2 hr2 l hn2, eI]
  unfold flatTerm
  rw [dif_pos hn, h0, h1]

/-- THE GRAND TOTAL of row `j`: the halves' sums over the lanes and the two halves are the sum over every entry of the
    two argument arrays of the entry's contribution. -/
theorem total_eq (j : Fin 3) :
    ∑ b : Fin 2, ∑ l : Fin 128, halfSum m c b.val j l
      = ∑ n : S33554432.Idx, term j (m ((c : Thread nD τ).loc main_arg0) n) (m ((c : Thread nD τ).loc main_arg1) n) := by
  have hB : ∀ (b : Fin 2) (l : Fin 128) (i' : Fin 8), blockSum m c (8 * b.val + i'.val) j l
      = ∑ k : Fin 8, ∑ r : Fin 2048,
          flatTerm m c j ((b.val * 131072 + (i'.val * 16384 + (k.val * 2048 + r.val))) * 128 + l.val) := by
    intro b l i'
    have ht : 8 * b.val + i'.val < cfg0.N := by
      have := b.isLt; have := i'.isLt; rw [show cfg0.N = 16 from N_0]; omega
    refine (blockSum_lt m c ⟨8 * b.val + i'.val, ht⟩ j l).trans ?_
    unfold pointSum chunk
    rw [Finset.sum_range]
    exact Finset.sum_congr rfl fun k _ => Finset.sum_congr rfl fun r _ => entry_eq m c ⟨8 * b.val + i'.val, ht⟩ b i' rfl k r l j
  have hH : ∀ (b : Fin 2) (l : Fin 128), halfSum m c b.val j l
      = ∑ i' : Fin 8, ∑ k : Fin 8, ∑ r : Fin 2048,
          flatTerm m c j ((b.val * 131072 + (i'.val * 16384 + (k.val * 2048 + r.val))) * 128 + l.val) := by
    intro b l
    unfold halfSum
    rw [Finset.sum_range]
    exact Finset.sum_congr rfl fun i' _ => hB b l i'
  rw [Finset.sum_congr rfl fun b _ => Finset.sum_congr rfl fun l _ => hH b l]
  rw [Cert.SumLaws.sum_flat (flatTerm m c j), Cert.SumLaws.sum_idx]
  refine Finset.sum_congr rfl fun n _ => ?_
  unfold flatTerm
  rw [dif_pos n.isLt]

end Cert.KernelIdeal.BlockV

end
-- ==== Proof.KernelRun.lean ====
/-
  The kernel's run, read: the result buffer ends at the loss of the three grand totals.

  After the region the host sums the output array [2, 3, 128] over its lanes and then over the two halves,
  takes the three entries of the resulting [3] array as scalars, and applies the loss. Each scalar is the
  grand total of its row over every entry of the arguments.
-/
import proofs.«140280_j23819888623694_2_alg».proof.Proof.BlockRead
import Idealize.ShloMosaic.PureOps.Ideal.Laws

set_option maxRecDepth 16384

noncomputable section

namespace Cert.KernelIdeal.RunV

open Cert.KernelIdeal Cert.KernelIdeal.Gen Cert.KernelIdeal.Trip Cert.KernelIdeal.Case Cert.KernelIdeal.GridV
open Cert.KernelIdeal.ArrayV Cert.KernelIdeal.BlockV
open Idealize.ShloMosaic Idealize.ShloMosaic.ValueIdx Idealize.ShloMosaic.TcCoe Idealize.SL.Sem Idealize.ShloMosaic.StableHlo

/-- Entry `off` of the [3] array of totals of an output array, as a scalar. -/
def ktot (O : FVec Ideal S2x3x128 .f32) (off : Fin 1 → ℕ) (hs : S3.Slices off S1) : FVec Ideal S_ .f32 :=
  shapeCast S_ (extractStridedSlice S1 off
    (Host.reduceAdd (Host.reduceAdd O (constant (F := Ideal) S_ .f32 0x00000000#32) reducesTo_S2x3x128_S2x3_d2 h_S_)
      (constant (F := Ideal) S_ .f32 0x00000000#32) reducesTo_S2x3_S3_d0 h_S_) hs) shapeCasts_S1_S_

/-- It is the sum of row `jj` of the output array over the lanes and the halves. -/
theorem ktot_apply (O : FVec Ideal S2x3x128 .f32) (jj : Fin 3) (off : Fin 1 → ℕ) (hoff : off 0 = jj.val)
    (hs : S3.Slices off S1) (i : S_.Idx) :
    ktot O off hs i = ∑ b : Fin 2, ∑ l : Fin 128, O (ix3 b jj l) := by
  unfold ktot
  refine (shapeCast_apply _ shapeCasts_S1_S_ i (ix1 (0 : Fin 1)) ?hk).trans ?_
  case hk =>
    have h1 : (S1.rowMajor (ix1 (0 : Fin 1))).val < 1 := (S1.rowMajor (ix1 (0 : Fin 1))).isLt
    have h2 : (S_.rowMajor i).val < 1 := (S_.rowMajor i).isLt
    omega
  refine (extractStridedSlice_apply off _ hs (ix1 (0 : Fin 1)) (ix1 jj) (fun a => ?_)).trans ?_
  · match a with
    | ⟨0, _⟩ =>
      show jj.val = off 0 + 0
      omega
  simp only [Host.reduceAdd, Ideal.hostReduceAdd_def]
  have hA : S2x3.Reduces [0] S3 := by decide
  have hB : S2x3x128.Reduces [2] S2x3 := by decide
  have hc : (constant (F := Ideal) S_ .f32 0x00000000#32) (Shape.Idx.first h_S_) = 0 := Ideal.ofBits_zero_f32
  rw [Ideal.hostReduceAdd_single reducesTo_S2x3_S3_d0 hA, hc, zero_add]
  refine Finset.sum_congr rfl fun (b : Fin 2) _ => ?_
  rw [Ideal.hostReduceAdd_single reducesTo_S2x3x128_S2x3_d2 hB, zero_add]
  refine Finset.sum_congr rfl fun (l : Fin 128) _ => congrArg O ?_
  funext a
  apply Fin.ext
  match a with
  | ⟨0, _⟩ => rfl
  | ⟨1, _⟩ => rfl
  | ⟨2, _⟩ => rfl

section
variable (m : (ℓ : Loc nD τ sig) → Buf (Elt Ideal) ℓ) (ρ : Dev nD → PrngReg) (c : Dev nD)

/-- Total `jj` of the output array the run leaves is the grand total of row `jj` over the arguments' entries. -/
theorem ktot_out (jj : Fin 3) (off : Fin 1 → ℕ) (hoff : off 0 = jj.val) (hs : S3.Slices off S1) :
    ktot (outArr m c) off hs
      = Cert.Spec.total (term jj) (m ((c : Thread nD τ).loc main_arg0)) (m ((c : Thread nD τ).loc main_arg1)) := by
  funext i
  rw [ktot_apply _ jj off hoff hs i]
  unfold Cert.Spec.total
  rw [← total_eq m c jj]
  rfl

set_option maxHeartbeats 2000000 in
/-- THE RESULT BUFFER after the lines that follow the region. -/
theorem tail_eq :
    Pipeline.afterTail₀ cfgs (dats m) 0 (V0 m) [hostOps1, hostOps1_1, hostOps1_2, hostOps1_3] c main_v23
      = Cert.Spec.result (m ((c : Thread nD τ).loc main_arg0)) (m ((c : Thread nD τ).loc main_arg1)) := by
  have hO : Pipeline.withArrays (cfgs 0).spec c (V0 m c) (fun w => (dats m 0 c).arrAt w (cfgs 0).N) (Proc.devRef .tc main_v2)
      = outArr m c :=
    (Pipeline.withArrays_arr spec0 launch0.win.arr_inj c _ _ 2).trans (final m c)
  unfold Pipeline.afterTail₀
  simp only [hostOps1, hostOps1_1, hostOps1_2, hostOps1_3, List.flatten_cons, List.flatten_nil, List.append_nil,
    List.cons_append, List.nil_append]
  after_results_simp
  rw [hO]
  show Cert.Spec.loss (ktot (outArr m c) ![2] slices_S3_S1_2) (ktot (outArr m c) ![0] slices_S3_S1_0)
      (ktot (outArr m c) ![1] slices_S3_S1_1) = _
  rw [ktot_out m c 2 ![2] rfl, ktot_out m c 0 ![0] rfl, ktot_out m c 1 ![1] rfl]
  rfl

/-- THE KERNEL'S RUN: every weakly fair execution terminates with the result at `Cert.Spec.result` of the arguments
    and the arguments unchanged. -/
theorem run : θ_run defs (onTc (τ := τ) (main (F := Ideal))) ⟨m, fun _ => 0, ρ⟩ fun r => ∀ c : Dev nD,
      r.2.mem ((c.tc : Thread nD τ).loc main_v23)
        = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v23 (Pipeline.mem_restRefs_of main_v23 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end

end Cert.KernelIdeal.RunV

end
-- ==== Proof.RefSums.lean ====
import proofs.«140280_j23819888623694_2_alg».proof.Proof.RefRun
import proofs.«140280_j23819888623694_2_alg».proof.Proof.Spec
import Idealize.ShloMosaic.PureOps.Ideal.Laws
import Idealize.ShloMosaic.Lib.ValueIdx

/-!
# The reference's three sums, and its result as the loss of three totals

Over the extended reals the reference forms three sums from the constant 0: the sum of the labels converted to
floats, the sum of the scores, and the sum of score times converted label. A sum into a scalar from 0 is the
total over all 33554432 positions. When every label word is 0 or 1 its conversion is the real 0 or 1, so the
three totals are: the number of nonzero labels, the sum of all scores, and the sum of the scores at nonzero
labels. The scalar chain that follows the sums is, operation for operation, `Cert.Spec.loss` of the three.
-/

noncomputable section

open scoped BigOperators

namespace Cert.ReferenceIdeal.RefValue

open Cert.ReferenceIdeal Cert.ReferenceIdeal.Gen Idealize.ShloMosaic Idealize.ShloMosaic.TcCoe Idealize.SL.Sem

/-- The signed conversion of the word 0 is the extended real 0. -/
theorem sitofp_zero : FloatOps.sitofp (F := Ideal) .f32 (0#32 : BitVec 32) = (0 : EReal) := by
  show (((0#32 : BitVec 32).toInt : ℝ) : EReal) = 0
  rw [show (0#32 : BitVec 32).toInt = 0 by decide, Int.cast_zero, EReal.coe_zero]

/-- The signed conversion of the word 1 is the extended real 1. -/
theorem sitofp_one : FloatOps.sitofp (F := Ideal) .f32 (1#32 : BitVec 32) = (1 : EReal) := by
  show (((1#32 : BitVec 32).toInt : ℝ) : EReal) = 1
  rw [show (1#32 : BitVec 32).toInt = 1 by decide, Int.cast_one, EReal.coe_one]

/-- A sum over all positions into a scalar, started from the constant 0, is the total of the operand's entries. -/
theorem host_sum (x : FVec Ideal S33554432 .f32) :
    Host.reduceAdd x (constant S_ .f32 0x00000000#32) reducesTo_S33554432_S_d0 h_S_
      = fun _ => ∑ j : S33554432.Idx, x j := by
  funext i
  show Ideal.hostReduceAdd reducesTo_S33554432_S_d0 x (Ideal.ofBits .f32 0x00000000#32) i = _
  rw [Ideal.hostReduceAdd_total reducesTo_S33554432_S_d0 (fun b => b.elim0), Ideal.ofBits_zero_f32, zero_add]

/-- The sum of the scores is the total of `termAll`. -/
theorem sum_all (x0 : FVec Ideal S33554432 .f32) (x1 : IVec S33554432 32) :
    Host.reduceAdd x0 (constant S_ .f32 0x00000000#32) reducesTo_S33554432_S_d0 h_S_
      = Cert.Spec.total Cert.Spec.termAll x0 x1 := by
  rw [host_sum]; rfl

/-- With labels 0 or 1, the sum of the converted labels is the total of `termCnt`: the number of nonzero labels. -/
theorem sum_cnt (x0 : FVec Ideal S33554432 .f32) (x1 : IVec S33554432 32)
    (hb : ∀ j, x1 j = 0#32 ∨ x1 j = 1#32) :
    Host.reduceAdd (sitofp (F := Ideal) .f32 x1) (constant S_ .f32 0x00000000#32) reducesTo_S33554432_S_d0 h_S_
      = Cert.Spec.total Cert.Spec.termCnt x0 x1 := by
  rw [host_sum]
  funext _
  refine Finset.sum_congr rfl fun j _ => ?_
  show FloatOps.sitofp (F := Ideal) .f32 (x1 j) = Cert.Spec.termCnt (x0 j) (x1 j)
  unfold Cert.Spec.termCnt
  rcases hb j with h | h
  · rw [h, sitofp_zero, if_pos rfl]
  · rw [h, sitofp_one, if_neg (by decide : ¬(1#32 : BitVec 32) = 0#32)]

/-- With labels 0 or 1, the sum of score times converted label is the total of `termPos`: the scores at nonzero labels. -/
theorem sum_pos (x0 : FVec Ideal S33554432 .f32) (x1 : IVec S33554432 32)
    (hb : ∀ j, x1 j = 0#32 ∨ x1 j = 1#32) :
    Host.reduceAdd (mulf x0 (sitofp (F := Ideal) .f32 x1)) (constant S_ .f32 0x00000000#32) reducesTo_S33554432_S_d0 h_S_
      = Cert.Spec.total Cert.Spec.termPos x0 x1 := by
  rw [host_sum]
  funext _
  refine Finset.sum_congr rfl fun j _ => ?_
  show x0 j * FloatOps.sitofp (F := Ideal) .f32 (x1 j) = Cert.Spec.termPos (x0 j) (x1 j)
  unfold Cert.Spec.termPos
  rcases hb j with h | h
  · rw [h, sitofp_zero, if_pos rfl, mul_zero]
  · rw [h, sitofp_one, if_neg (by decide : ¬(1#32 : BitVec 32) = 0#32), mul_one]

/-- With labels 0 or 1, the term the reference's run leaves in its result is the loss of the three totals. -/
theorem result_eq (x0 : FVec Ideal S33554432 .f32) (x1 : IVec S33554432 32)
    (hb : ∀ j, x1 j = 0#32 ∨ x1 j = 1#32) :
    (select (andi (cmpf .ogt (Host.reduceAdd (sitofp (F := Ideal) .f32 x1) (constant S_ .f32 0x00000000#32) reducesTo_S33554432_S_d0 h_S_) (constant S_ .f32 0x00000000#32)) (cmpf .ogt (subf (constant S_ .f32 0x4C000000#32) (Host.reduceAdd (sitofp (F := Ideal) .f32 x1) (constant S_ .f32 0x00000000#32) reducesTo_S33554432_S_d0 h_S_)) (constant S_ .f32 0x00000000#32))) (Host.divf (mulf (constant S_ .f32 0x3E4CCCCD#32) (subf (mulf (Host.reduceAdd (sitofp (F := Ideal) .f32 x1) (constant S_ .f32 0x00000000#32) reducesTo_S33554432_S_d0 h_S_) (subf (Host.reduceAdd x0 (constant S_ .f32 0x00000000#32) reducesTo_S33554432_S_d0 h_S_) (Host.reduceAdd (mulf x0 (sitofp (F := Ideal) .f32 x1)) (constant S_ .f32 0x00000000#32) reducesTo_S33554432_S_d0 h_S_))) (mulf (subf (constant S_ .f32 0x4C000000#32) (Host.reduceAdd (sitofp (F := Ideal) .f32 x1) (constant S_ .f32 0x00000000#32) reducesTo_S33554432_S_d0 h_S_)) (Host.reduceAdd (mulf x0 (sitofp (F := Ideal) .f32 x1)) (constant S_ .f32 0x00000000#32) reducesTo_S33554432_S_d0 h_S_)))) (select (andi (cmpf .ogt (Host.reduceAdd (sitofp (F := Ideal) .f32 x1) (constant S_ .f32 0x00000000#32) reducesTo_S33554432_S_d0 h_S_) (constant S_ .f32 0x00000000#32)) (cmpf .ogt (subf (constant S_ .f32 0x4C000000#32) (Host.reduceAdd (sitofp (F := Ideal) .f32 x1) (constant S_ .f32 0x00000000#32) reducesTo_S33554432_S_d0 h_S_)) (constant S_ .f32 0x00000000#32))) (mulf (Host.reduceAdd (sitofp (F := Ideal) .f32 x1) (constant S_ .f32 0x00000000#32) reducesTo_S33554432_S_d0 h_S_) (subf (constant S_ .f32 0x4C000000#32) (Host.reduceAdd (sitofp (F := Ideal) .f32 x1) (constant S_ .f32 0x00000000#32) reducesTo_S33554432_S_d0 h_S_))) (constant S_ .f32 0x3F800000#32))) (constant S_ .f32 0x00000000#32) : FVec Ideal S_ .f32)
      = Cert.Spec.result x0 x1 := by
  show Cert.Spec.loss
      (Host.reduceAdd (sitofp (F := Ideal) .f32 x1) (constant S_ .f32 0x00000000#32) reducesTo_S33554432_S_d0 h_S_)
      (Host.reduceAdd x0 (constant S_ .f32 0x00000000#32) reducesTo_S33554432_S_d0 h_S_)
      (Host.reduceAdd (mulf x0 (sitofp (F := Ideal) .f32 x1)) (constant S_ .f32 0x00000000#32) reducesTo_S33554432_S_d0 h_S_)
    = Cert.Spec.result x0 x1
  rw [sum_cnt x0 x1 hb, sum_all x0 x1, sum_pos x0 x1 hb]
  rfl

/-- The reference's run, restated: with labels 0 or 1 on every device, every weakly fair execution terminates with
    the result buffer holding the loss of the three totals of the arguments, and the arguments unchanged. -/
theorem run_result (m : (ℓ : Loc nD τ sig) → Buf (Elt Ideal) ℓ) (ρ : Dev nD → PrngReg)
    (hb : ∀ c : Dev nD, ∀ j, m ((c.tc : Thread nD τ).loc main_arg1) j = 0#32
      ∨ m ((c.tc : Thread nD τ).loc main_arg1) j = 1#32) :
    θ_run defs (onTc (τ := τ) (main (F := Ideal))) ⟨m, fun _ => 0, ρ⟩ fun r => ∀ c : Dev nD,
      r.2.mem ((c.tc : Thread nD τ).loc main_v17)
          = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq _ _ (hb c)), (h c).2⟩)
    (Cert.ReferenceIdeal.ValueP.run (F := Ideal) m ρ)

end Cert.ReferenceIdeal.RefValue

end
-- ==== Proof.Labels.lean ====
import proofs.«140280_j23819888623694_2_alg».proof.Pre_finite_inputs
import Idealize.ShloMosaic.Lib.ReduceAll
import Idealize.ShloMosaic.PureOps.Ideal

/-!
# The labels are binary

The precondition is a one-bit scalar: the conjunction of "every score is finite" and "every label is 0 or 1",
each a reduction by `and` over all 33554432 positions. When that scalar is 1, both reductions are 1, and a
reduction by `and` that is 1 met only 1s; so at every position the one-bit word
"label = 0 or label = 1" is 1, which says the label word is 0 or 1.
-/

noncomputable section

namespace Cert.Labels

open Idealize.ShloMosaic Cert.Pre_finite_inputs

/-- The scalar shape has exactly one index. -/
instance subsingleton_scalar_idx : Subsingleton S_.Idx := ⟨fun _ _ => funext fun d => d.elim0⟩

/-- A 32-bit word `w` for which the one-bit word "(w = 0) or (w = 1)" is 1 is the word 0 or the word 1. -/
theorem word_binary (w : BitVec 32)
    (h : IntOp.ori (IntOp.cmpi .eq w 0#32) (IntOp.cmpi .eq w 1#32) = 1#1) : w = 0#32 ∨ w = 1#32 := by
  rcases IntOp.ori_eq_one.1 h with h0 | h1
  · exact Or.inl (IntOp.cmpi_eq.1 h0)
  · exact Or.inr (IntOp.cmpi_eq.1 h1)

/-- If the precondition evaluates to 1 on scores `x0` and labels `x1`, then every label is 0 or 1. -/
theorem binary [Cert.Pre_finite_inputs.Facts] (x0 : FVec Ideal Cert.Pre_finite_inputs.S33554432 .f32)
    (x1 : IVec Cert.Pre_finite_inputs.S33554432 32)
    (h : Cert.Pre_finite_inputs.fn (F := Ideal) x0 x1 = fun _ => 1#1) : ∀ j, x1 j = 0#32 ∨ x1 j = 1#32 := by
  intro j
  -- the scalar result, read at its one index, is the `and` of the two reductions
  have h0 : Cert.Pre_finite_inputs.fn (F := Ideal) x0 x1 (fun a => a.elim0) = 1#1 := congrFun h _
  obtain ⟨-, h9⟩ := IntOp.andi_eq_one.1 h0
  -- the second reduction is 1, so its operand is 1 at position `j`
  have hj := Host.reduce_andi_all (t := S_) _ _ _ _ _ h9 j
  exact word_binary (x1 j) hj

end Cert.Labels

end
-- ==== Proof.lean ====
/-
  The ranking loss of 2^25 scores with binary labels, computed by a streaming reduction, against its
  closed form in jnp.

  Both programs compute three totals over the entries (y, w) of the two arrays — p, the number of positive
  labels; a, the sum of all scores; s, the sum of the positives' scores — and then the same chain of scalar
  operations, `Cert.Spec.loss p a s`. The reference takes p = Σ float(w), s = Σ y · float(w); the kernel
  takes p = Σ [w ≠ 0], s = Σ (y if w ≠ 0 else 0). These agree when every label is 0 or 1, which the
  precondition states (beside the finiteness of the scores, which this proof does not use: the extended
  reals' addition is associative and commutative, and x · 0 = 0, x · 1 = x hold for every extended real).

  The kernel reads the arrays as [2, 131072, 128], walks each half in 8 blocks of 16384 rows and each block
  in 8 chunks of 2048 rows, adding each chunk's column sums to a [3, 128] accumulator that is zeroed at the
  first block of a half and copied out after the last; the host then sums the [2, 3, 128] output over lanes
  and halves. The proof follows that nesting: one trip of the loop (ChunkSums, TripValue), the loop
  (LoopValue), one grid point (CaseValue), the grid (GridValue), the output array (ArrayValue), the blocks
  as entries of the flat arrays and the regrouping of the nested sums into one sum over all entries
  (BlockRead, SumLaws), the host's last sums and the loss (KernelRun). The reference's three sums are read
  in RefSums over its run (RefRun), and the labels' range is decoded from the precondition in Labels.
-/
import proofs.«140280_j23819888623694_2_alg».proof.Defs
import proofs.«140280_j23819888623694_2_alg».proof.Proof.Gen.Kernel
import proofs.«140280_j23819888623694_2_alg».proof.Proof.Gen.Kernel.Skeleton
import proofs.«140280_j23819888623694_2_alg».proof.Proof.Gen.Kernel.Loops
import proofs.«140280_j23819888623694_2_alg».proof.Proof.Gen.Kernel.Launch
import proofs.«140280_j23819888623694_2_alg».proof.Proof.Gen.Kernel.Points
import proofs.«140280_j23819888623694_2_alg».proof.Proof.Gen.Kernel.Frame
import proofs.«140280_j23819888623694_2_alg».proof.Proof.Gen.KernelIdeal
import proofs.«140280_j23819888623694_2_alg».proof.Proof.Gen.KernelIdeal.Skeleton
import proofs.«140280_j23819888623694_2_alg».proof.Proof.Gen.KernelIdeal.Loops
import proofs.«140280_j23819888623694_2_alg».proof.Proof.Gen.KernelIdeal.Launch
import proofs.«140280_j23819888623694_2_alg».proof.Proof.Gen.KernelIdeal.Points
import proofs.«140280_j23819888623694_2_alg».proof.Proof.Gen.KernelIdeal.Frame
import proofs.«140280_j23819888623694_2_alg».proof.Proof.Gen.ReferenceIdeal
import proofs.«140280_j23819888623694_2_alg».proof.Proof.Gen.Pre_finite_inputs
import proofs.«140280_j23819888623694_2_alg».proof.Proof.KernelRun
import proofs.«140280_j23819888623694_2_alg».proof.Proof.RefSums
import proofs.«140280_j23819888623694_2_alg».proof.Proof.Labels
import Idealize.ShloMosaic.Adequacy
import Idealize.ShloMosaic.Init

noncomputable section

namespace Cert.Proof

open Idealize.ShloMosaic Idealize.SL.Sem

/-- The reference runs and leaves its arguments as they were: its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both idealized programs end at `Cert.Spec.result` of the arguments: the kernel always, the reference because
    the precondition makes every label 0 or 1. -/
theorem algebraic : Cert.algebraic_KernelIdeal_ReferenceIdeal := by
  intro m ρ m' ρ' hpre hagree
  have hb : ∀ c : Dev Cert.KernelIdeal.nD, ∀ j,
      m ((c.tc : Thread Cert.KernelIdeal.nD Cert.KernelIdeal.τ).loc Cert.KernelIdeal.main_arg1) j = 0#32
      ∨ m ((c.tc : Thread Cert.KernelIdeal.nD Cert.KernelIdeal.τ).loc Cert.KernelIdeal.main_arg1) j = 1#32 :=
    fun c => Cert.Labels.binary _ _ (hpre c)
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RunV.run m ρ, ?_⟩
  refine (θ_run Cert.ReferenceIdeal.defs _ _).mono (fun _ h c => ⟨?_, (h c).2⟩)
    (Cert.ReferenceIdeal.RefValue.run_result m' ρ' (fun c j => ?_))
  · rw [(h c).1, (hagree c).1, (hagree c).2]
  · rw [(hagree c).2]; exact hb c j

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
